-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S4096x4096 .f32) (main_arg2 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S4096 : Shape := ⟨1, ![4096]⟩
abbrev S2048x512 : Shape := ⟨2, ![2048, 512]⟩
abbrev S2048 : Shape := ⟨1, ![2048]⟩
abbrev S2048x2048 : Shape := ⟨2, ![2048, 2048]⟩
abbrev S1x2048 : Shape := ⟨2, ![1, 2048]⟩

abbrev nBuf : Space → Nat
  | .hbm => 4
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S8192x4096, .f32⟩
  | .local _ .vmem, ⟨0, _⟩ => ⟨S2048x512, .f32⟩
  | .local _ .vmem, ⟨1, _⟩ => ⟨S2048x512, .f32⟩
  | .local _ .vmem, ⟨2, _⟩ => ⟨S2048x512, .f32⟩
  | .local _ .vmem, ⟨3, _⟩ => ⟨S2048x512, .f32⟩
  | .local _ .vmem, ⟨4, _⟩ => ⟨S2048, .f32⟩
  | .local _ .vmem, ⟨5, _⟩ => ⟨S2048, .f32⟩
  | .local _ .vmem, ⟨6, _⟩ => ⟨S2048x2048, .f32⟩
  | .local _ .vmem, ⟨7, _⟩ => ⟨S2048x2048, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S2048x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  inb_S2048x2048_S2048x2048_0_0 : ∀ a, (![0, 0] : Fin 2 → Nat) a + S2048x2048.size a ≤ S2048x2048.size a
  h_S2048x2048 : 0 < S2048x2048.numel
  inb_S2048x512_S2048x512_0_0 : ∀ a, (![0, 0] : Fin 2 → Nat) a + S2048x512.size a ≤ S2048x512.size a
  h_S2048x512 : 0 < S2048x512.numel
  bitsLt_bf16_f32 : FTy.bits .bf16 < FTy.bits .f32
  shapeCasts_S2048x2048_S2048x2048 : S2048x2048.ShapeCasts S2048x2048
  inb_S2048_S2048_0 : ∀ a, (![0] : Fin 1 → Nat) a + S2048.size a ≤ S2048.size a
  h_S2048 : 0 < S2048.numel
  shapeCasts_S2048_S1x2048 : S2048.ShapeCasts S1x2048
  broadcasts_S1x2048_S2048x2048 : S1x2048.Broadcasts S2048x2048
  dot_S2048x512_S2048x512_S2048x2048_1_1_0_0_n_n_wf : DotDims.WF S2048x512 S2048x512 S2048x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S8192x4096.size a
  hwx0_0 : ∀ i : grid0.Coords, EltTy.bits .f32 = 32 ∨ (Rect.block (s := S8192x4096) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S4096x4096.size a
  hwx0_1 : ∀ i : grid0.Coords, EltTy.bits .f32 = 32 ∨ (Rect.block (s := S4096x4096) S2048x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048.size a ≤ S4096.size a
  hwx0_2 : ∀ i : grid0.Coords, EltTy.bits .f32 = 32 ∨ (Rect.block (s := S4096) S2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x2048.size a ≤ S8192x4096.size a
  hwx0_3 : ∀ i : grid0.Coords, EltTy.bits .f32 = 32 ∨ (Rect.block (s := S8192x4096) S2048x2048.size (cc0_transform_3 i) (hinb0_3 i)).WholeWords (EltTy.packing .f32)

variable [Facts₀]

def dot_S2048x512_S2048x512_S2048x2048_1_1_0_0_n_n : DotDims S2048x512 S2048x512 S2048x2048 where
  lhsContracting := [1]
  rhsContracting := [1]
  lhsNonContracting := [0]
  rhsNonContracting := [0]
  lhsBatch := []
  rhsBatch := []
  wf := dot_S2048x512_S2048x512_S2048x2048_1_1_0_0_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S2048x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩

abbrev nBuf : Space → Nat
  | .hbm => 7
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S8192x4096, .f32⟩
  | .hbm, ⟨4, _⟩ => ⟨S1x4096, .f32⟩
  | .hbm, ⟨5, _⟩ => ⟨S8192x4096, .f32⟩
  | .hbm, ⟨6, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.LibBlockSum.lean ====
/-
  Regrouping a finite sum into consecutive blocks.

  A sum over the `N = m * n` indices `0, …, N - 1` is the sum, over the `m` blocks `j = 0, …, m - 1`, of the sums
  over the `n` consecutive indices `n * j, …, n * j + n - 1` of block `j`.  It holds in every additive commutative
  monoid — in particular over the extended reals, where a sum may be regrouped and reordered freely although
  cancellation and distributivity fail at the infinities.  The block index ranges over `Finset.range m` so that a
  running partial sum over the first `k + 1` blocks is `Finset.sum_range_succ` away from the one over the first `k`;
  the position inside `Fin N` is written modulo `N` so that the summand is a total function of the natural number `j`.
-/
import Mathlib

open scoped BigOperators

namespace Cert.LibBlockSum

/-- The sum over `Fin N`, `N = m * n`, block by block: block `j` holds the indices `n * j + k`, `k < n`. -/
theorem sum_range_blocks {M : Type*} [AddCommMonoid M] (m n N : ℕ) (hN : N = m * n) (hpos : 0 < N) (f : Fin N → M) :
    ∑ j ∈ Finset.range m, ∑ k : Fin n, f ⟨(n * j + k.val) % N, Nat.mod_lt _ hpos⟩ = ∑ i : Fin N, f i := by
  subst hN
  rw [Finset.sum_range, ← Fintype.sum_prod_type']
  refine Fintype.sum_equiv finProdFinEquiv _ _ (fun p => ?_)
  have hlt : p.2.val + n * p.1.val < m * n := by
    have := (finProdFinEquiv p).isLt
    rwa [finProdFinEquiv_apply_val] at this
  refine congrArg f (Fin.ext ?_)
  show (n * p.1.val + p.2.val) % (m * n) = (finProdFinEquiv p).val
  rw [finProdFinEquiv_apply_val, Nat.mod_eq_of_lt (by omega)]
  omega

end Cert.LibBlockSum
-- ==== Proof.LibNatRead.lean ====
/-
  A matrix read at a pair of natural numbers.

  When a large matrix is cut into blocks, the row and column of an entry of a block are sums "block offset + position
  inside the block".  Reading the matrix at natural numbers, each reduced modulo its extent, makes such a reading a
  total function of the two numbers: positions can then be compared by arithmetic alone, with no bound carried inside
  the term.  At numbers below the extents the reading is the matrix entry itself.
-/
import Idealize.ShloMosaic.Lib.ValueIdx

noncomputable section

namespace Cert.LibNatRead

open Idealize.ShloMosaic Idealize.ShloMosaic.ValueIdx

variable {α : Type}

/-- The entry of an [a, b] matrix at row r mod a and column l mod b. -/
def rd2 {a b : ℕ} (ha : 0 < a) (hb : 0 < b) (X : (⟨2, ![a, b]⟩ : Shape).Idx → α) (r l : ℕ) : α :=
  X (ix2 (⟨r % a, Nat.mod_lt _ ha⟩ : Fin a) (⟨l % b, Nat.mod_lt _ hb⟩ : Fin b))

/-- The entry at an index is the reading at the index's two coordinates. -/
theorem rd2_eq {a b : ℕ} (ha : 0 < a) (hb : 0 < b) (X : (⟨2, ![a, b]⟩ : Shape).Idx → α) (i : (⟨2, ![a, b]⟩ : Shape).Idx)
    (r l : ℕ) (h0 : (i 0).val = r) (h1 : (i 1).val = l) : X i = rd2 ha hb X r l := by
  unfold rd2
  refine congrArg X (funext fun ax => Fin.ext ?_)
  match ax with
  | ⟨0, _⟩ =>
    show (i 0).val = r % a
    rw [← h0]; exact (Nat.mod_eq_of_lt (idx2_lt0 i)).symm
  | ⟨1, _⟩ =>
    show (i 1).val = l % b
    rw [← h1]; exact (Nat.mod_eq_of_lt (idx2_lt1 i)).symm

/-- At a row and a column below the extents the reading is the entry. -/
theorem rd2_ix2 {a b : ℕ} (ha : 0 < a) (hb : 0 < b) (X : (⟨2, ![a, b]⟩ : Shape).Idx → α) (r : Fin a) (l : Fin b) :
    rd2 ha hb X r.val l.val = X (ix2 r l) :=
  (rd2_eq ha hb X (ix2 r l) r.val l.val rfl rfl).symm

end Cert.LibNatRead

end
-- ==== Proof.Linear.lean ====
/-
  A dense linear layer on the extended reals, and the same layer accumulated over blocks of the contracted axis.

  For X of shape [8192, 4096], W of shape [4096, 4096] and b of shape [4096] the layer's entry (p, o) is the inner
  product of row p of X with row o of W, plus b(o).  A blocked evaluation starts a running value at zero, adds in turn
  the eight partial inner products over the column blocks 512·s, …, 512·s + 511 (s = 0, …, 7), and adds b(o) last.
  The two agree: only commutativity and associativity of addition and 0 + a = a are used, so the statement holds for
  all extended reals, infinite ones included.
-/
import Idealize.ShloMosaic.PureOps.Ideal.Laws
import Idealize.ShloMosaic.Lib.ValueIdx
import proofs.«111517_j21251498180723_2_alg».proof.Proof.LibBlockSum
import proofs.«111517_j21251498180723_2_alg».proof.Proof.LibNatRead

noncomputable section

open scoped BigOperators

namespace Cert.Linear

open Idealize.ShloMosaic Idealize.ShloMosaic.ValueIdx Cert.LibNatRead

/-- The layer: entry (p, o) is the sum over j of X(p, j) · W(o, j), plus b(o). -/
def linear (X : (⟨2, ![8192, 4096]⟩ : Shape).Idx → EReal) (W : (⟨2, ![4096, 4096]⟩ : Shape).Idx → EReal)
    (b : (⟨1, ![4096]⟩ : Shape).Idx → EReal) : (⟨2, ![8192, 4096]⟩ : Shape).Idx → EReal :=
  fun i => (∑ j : Fin 4096, X (ix2 (i 0) j) * W (ix2 (i 1) j)) + b (ix1 (i 1))

/-- X read at a row and a column given as natural numbers (each taken modulo its extent). -/
abbrev rdX (X : (⟨2, ![8192, 4096]⟩ : Shape).Idx → EReal) (r l : ℕ) : EReal :=
  rd2 (a := 8192) (b := 4096) (by decide) (by decide) X r l

/-- W read at a row and a column given as natural numbers (each taken modulo its extent). -/
abbrev rdW (W : (⟨2, ![4096, 4096]⟩ : Shape).Idx → EReal) (r l : ℕ) : EReal :=
  rd2 (a := 4096) (b := 4096) (by decide) (by decide) W r l

/-- b read at a position given as a natural number (taken modulo 4096). -/
def rdB (b : (⟨1, ![4096]⟩ : Shape).Idx → EReal) (o : ℕ) : EReal :=
  b (ix1 (⟨o % 4096, Nat.mod_lt _ (by decide)⟩ : Fin 4096))

/-- The partial inner product of row r of X with row o of W over the 512 columns of block s. -/
def blockDot (X : (⟨2, ![8192, 4096]⟩ : Shape).Idx → EReal) (W : (⟨2, ![4096, 4096]⟩ : Shape).Idx → EReal)
    (r o s : ℕ) : EReal :=
  ∑ j : Fin 512, rdX X r (512 * s + j.val) * rdW W o (512 * s + j.val)

/-- A reading at a row below the extent is the entry in that row. -/
theorem rd2_row {α : Type} {a b : ℕ} (ha : 0 < a) (hb : 0 < b) (X : (⟨2, ![a, b]⟩ : Shape).Idx → α) (r : Fin a) (l : ℕ) :
    rd2 ha hb X r.val l = X (ix2 r (⟨l % b, Nat.mod_lt _ hb⟩ : Fin b)) :=
  congrArg (fun r' : Fin a => X (ix2 r' (⟨l % b, Nat.mod_lt _ hb⟩ : Fin b)))
    (Fin.ext (Nat.mod_eq_of_lt r.isLt) : (⟨r.val % a, Nat.mod_lt _ ha⟩ : Fin a) = r)

/-- The eight block inner products together are the whole inner product. -/
theorem sum_blockDot (X : (⟨2, ![8192, 4096]⟩ : Shape).Idx → EReal) (W : (⟨2, ![4096, 4096]⟩ : Shape).Idx → EReal)
    (p : Fin 8192) (o : Fin 4096) :
    ∑ s ∈ Finset.range 8, blockDot X W p.val o.val s = ∑ j : Fin 4096, X (ix2 p j) * W (ix2 o j) := by
  rw [← Cert.LibBlockSum.sum_range_blocks 8 512 4096 rfl (by decide) (fun j : Fin 4096 => X (ix2 p j) * W (ix2 o j))]
  refine Finset.sum_congr rfl fun s _ => Finset.sum_congr rfl fun k _ => ?_
  show rd2 _ _ X p.val (512 * s + k.val) * rd2 _ _ W o.val (512 * s + k.val) = _
  rw [rd2_row, rd2_row]

/-- Zero, then the first seven block inner products, then the eighth, then the bias: the layer's entry. -/
theorem blocked_eq_linear (X : (⟨2, ![8192, 4096]⟩ : Shape).Idx → EReal) (W : (⟨2, ![4096, 4096]⟩ : Shape).Idx → EReal)
    (b : (⟨1, ![4096]⟩ : Shape).Idx → EReal) (i : (⟨2, ![8192, 4096]⟩ : Shape).Idx) :
    ((0 + ∑ s ∈ Finset.range 7, blockDot X W (i 0).val (i 1).val s) + blockDot X W (i 0).val (i 1).val 7)
      + rdB b (i 1).val = linear X W b i := by
  have hb : rdB b (i 1).val = b (ix1 (i 1)) :=
    congrArg (fun o' : Fin 4096 => b (ix1 o'))
      (Fin.ext (Nat.mod_eq_of_lt (i 1).isLt) : (⟨(i 1).val % 4096, Nat.mod_lt _ (by decide)⟩ : Fin 4096) = i 1)
  rw [zero_add, ← Finset.sum_range_succ (fun s => blockDot X W (i 0).val (i 1).val s) 7, hb]
  exact congrArg (· + b (ix1 (i 1))) (sum_blockDot X W (i 0) (i 1))

end Cert.Linear

end
-- ==== Proof.Reference.lean ====
/-
  The reference computes the linear layer.

  Its four host operations are one contraction of X's rows against W's rows, the bias vector placed as a one-row matrix,
  that row repeated over all 8192 rows, and an entrywise sum.  Read at an entry (p, o) this is the sum over j of
  X(p, j) · W(o, j), plus b(o).
-/
import proofs.«111517_j21251498180723_2_alg».proof.Proof.Gen.ReferenceIdeal.Read
import proofs.«111517_j21251498180723_2_alg».proof.Proof.Linear

noncomputable section

open scoped BigOperators

namespace Cert.ReferenceIdeal.RefValue

open Cert.ReferenceIdeal Cert.ReferenceIdeal.Gen Cert.ReferenceIdeal.Read Idealize.ShloMosaic Idealize.ShloMosaic.ValueIdx

/-- The reference's result, as a function of its three arguments, is the linear layer. -/
theorem reference_eq_linear (X : FVec Ideal S8192x4096 .f32) (W : FVec Ideal S4096x4096 .f32) (b : FVec Ideal S4096 .f32) :
    addf (F := Ideal) (Host.dotGeneral dot_S8192x4096_S4096x4096_S8192x4096_1_1_0_0_n_n none X W)
        (broadcastInDim S8192x4096 ![0, 1] bcast_S1x4096_S8192x4096_0_1 (broadcastInDim S1x4096 ![1] bcast_S4096_S1x4096_1 b))
      = Cert.Linear.linear X W b := by
  rw [val_main_v3_eq]
  funext i
  -- the contraction's operand indices at entry i and contracted position k are (i 0, k) and (i 1, k)
  have el : ∀ k : Fin 4096, lidx_main_v0 i k = ix2 (i 0) k := fun k => funext fun a => Fin.ext (by
    match a with
    | ⟨0, _⟩ => rfl
    | ⟨1, _⟩ => rfl)
  have er : ∀ k : Fin 4096, ridx_main_v0 i k = ix2 (i 1) k := fun k => funext fun a => Fin.ext (by
    match a with
    | ⟨0, _⟩ => rfl
    | ⟨1, _⟩ => rfl)
  -- the repeated bias row at entry i reads the vector at i's column
  have eb : idx_main_v1 (idx_main_v2 i) = ix1 (i 1) := funext fun a => Fin.ext (by
    match a with
    | ⟨0, _⟩ => rfl)
  rw [val_main_v3_apply, val_main_v0_apply, val_main_v2_apply, val_main_v1_apply, eb]
  simp only [el, er]
  rfl

end Cert.ReferenceIdeal.RefValue

end
-- ==== Proof.LibRowRowDot.lean ====
/-
  A contraction of two matrices along their rows' common axis: `[n, k] × [m, k] → [n, m]`, entry `(p, o)` the inner
  product of row `p` of the left operand with row `o` of the right (a product with the right operand's transpose that
  never forms the transpose). Read at an index on the extended reals: for any contraction record with those
  dimension numbers, and for a matrix unit's product into the zero accumulator.
-/
import Idealize.ShloMosaic.PureOps.Ideal.Laws
import Idealize.ShloMosaic.Lib.ValueIdx

noncomputable section

open scoped BigOperators

namespace Cert.LibRowRowDot

open Idealize.ShloMosaic Idealize.ShloMosaic.ValueIdx

/-- The sum over the contraction index is the sum over the one contracted coordinate j, the left operand read at
    (p, j) and the right at (o, j). -/
theorem sum_contr_rows {n k m : ℕ} (D : DotDims ⟨2, ![n, k]⟩ ⟨2, ![m, k]⟩ ⟨2, ![n, m]⟩)
    (hlc : D.lhsContracting = [1]) (hrc : D.rhsContracting = [1]) (hln : D.lhsNonContracting = [0]) (hrn : D.rhsNonContracting = [0])
    (hlb : D.lhsBatch = []) (hrb : D.rhsBatch = [])
    (lhs : (⟨2, ![n, k]⟩ : Shape).Idx → EReal) (rhs : (⟨2, ![m, k]⟩ : Shape).Idx → EReal) (p : Fin n) (o : Fin m) :
    ∑ q : D.contr.Idx, lhs (D.lhsIdx (ix2 p o) q) * rhs (D.rhsIdx (ix2 p o) q) = ∑ j : Fin k, lhs (ix2 p j) * rhs (ix2 o j) := by
  obtain ⟨lc, rc, ln, rn, lb, rb, wf⟩ := D
  simp only at hlc hrc hln hrn hlb hrb
  subst hlc hrc hln hrn hlb hrb
  rw [← Equiv.sum_comp (contrEquiv1 (DotDims.mk [1] [1] [0] [0] [] [] wf) k rfl rfl).symm]
  refine Finset.sum_congr rfl fun j _ => ?_
  have hk := contrEquiv1_symm_val (DotDims.mk [1] [1] [0] [0] [] [] wf) k rfl rfl j
  have el : (DotDims.mk [1] [1] [0] [0] [] [] wf).lhsIdx (ix2 p o) ((contrEquiv1 (DotDims.mk [1] [1] [0] [0] [] [] wf) k rfl rfl).symm j) = ix2 p j :=
    funext fun a => Fin.ext (by
      match a with
      | ⟨0, _⟩ => rfl
      | ⟨1, _⟩ => exact ((DotDims.mk [1] [1] [0] [0] [] [] wf).lhsIdx_val_of_single rfl _ _).trans hk)
  have er : (DotDims.mk [1] [1] [0] [0] [] [] wf).rhsIdx (ix2 p o) ((contrEquiv1 (DotDims.mk [1] [1] [0] [0] [] [] wf) k rfl rfl).symm j) = ix2 o j :=
    funext fun a => Fin.ext (by
      match a with
      | ⟨0, _⟩ => rfl
      | ⟨1, _⟩ => exact ((DotDims.mk [1] [1] [0] [0] [] [] wf).rhsIdx_val_of_single rfl _ _).trans hk)
  rw [el, er]

/-- A matrix unit's product of rows against rows into the zero accumulator, at (p, o). -/
theorem matmul_zero_rows_apply {n k m : ℕ} {φ₁ φ₂ : FTy} (D : DotDims ⟨2, ![n, k]⟩ ⟨2, ![m, k]⟩ ⟨2, ![n, m]⟩)
    (hlc : D.lhsContracting = [1]) (hrc : D.rhsContracting = [1]) (hln : D.lhsNonContracting = [0]) (hrn : D.rhsNonContracting = [0])
    (hlb : D.lhsBatch = []) (hrb : D.rhsBatch = []) (prec : Option ContractPrecision)
    (lhs : FVec Ideal ⟨2, ![n, k]⟩ φ₁) (rhs : FVec Ideal ⟨2, ![m, k]⟩ φ₂) (p : Fin n) (o : Fin m) :
    FloatOps.matmul D prec lhs rhs (constant ⟨2, ![n, m]⟩ .f32 0x00000000#32) (ix2 p o) = ∑ j : Fin k, lhs (ix2 p j) * rhs (ix2 o j) :=
  (Ideal.matmul_constant_zero_apply D prec lhs rhs (ix2 p o)).trans (sum_contr_rows D hlc hrc hln hrn hlb hrb lhs rhs p o)

end Cert.LibRowRowDot

end
-- ==== Proof.LibBiasRow.lean ====
/-
  A bias vector laid along the rows of a matrix, read at an entry.

  A vector [D] reshaped to the one-row matrix [1, D] has the vector's element k at (0, k); that row spread over N rows has,
  at (p, k), the row's element (0, k).  Together: adding a bias vector to every row of an [N, D] matrix adds element k of the
  vector at column k.  General in the extents and the element type.
-/
import Idealize.ShloMosaic.Lib.ValueIdx
import Idealize.ShloMosaic.Lib.Pipeline.Value

noncomputable section

namespace Cert.LibBiasRow

open Idealize.ShloMosaic Idealize.ShloMosaic.ValueIdx

/-- A vector reshaped to a one-row matrix: element (u, k) of the row is element k of the vector. -/
theorem vec_as_row_apply {α : Type} {D : ℕ} (h : (⟨1, ![D]⟩ : Shape).ShapeCasts ⟨2, ![1, D]⟩)
    (v : (⟨1, ![D]⟩ : Shape).Idx → α) (u : Fin 1) (k : Fin D) :
    shapeCast ⟨2, ![1, D]⟩ v h (ix2 u k) = v (ix1 k) := by
  refine (shapeCast_addUnit_apply (n := 1) ![D] v h (ix2 u k)).trans (congrArg v ?_)
  funext a
  match a with
  | ⟨0, _⟩ => rfl

/-- A one-row matrix spread over N rows: element (p, k) is the row's element (0, k) (the first axis is a unit axis; the
    second is read at the column, also when D = 1). -/
theorem row_spread_apply {α : Type} {N D : ℕ} (h : (⟨2, ![1, D]⟩ : Shape).Broadcasts ⟨2, ![N, D]⟩)
    (v : (⟨2, ![1, D]⟩ : Shape).Idx → α) (p : Fin N) (k : Fin D) :
    broadcastTo ⟨2, ![N, D]⟩ v h (ix2 p k) = v (ix2 (0 : Fin 1) k) :=
  broadcastTo_apply v h (ix2 p k) (ix2 (0 : Fin 1) k) (fun a => by
    match a with
    | ⟨0, _⟩ => rfl
    | ⟨1, _⟩ =>
      show k.val = if D = 1 then 0 else k.val
      split
      · have := k.isLt; omega
      · rfl)

/-- The two together: a vector reshaped to a row and spread over N rows reads, at (p, k), the vector's element k. -/
theorem vec_spread_apply {α : Type} {N D : ℕ} (h₁ : (⟨1, ![D]⟩ : Shape).ShapeCasts ⟨2, ![1, D]⟩)
    (h₂ : (⟨2, ![1, D]⟩ : Shape).Broadcasts ⟨2, ![N, D]⟩) (v : (⟨1, ![D]⟩ : Shape).Idx → α) (p : Fin N) (k : Fin D) :
    broadcastTo ⟨2, ![N, D]⟩ (shapeCast ⟨2, ![1, D]⟩ v h₁) h₂ (ix2 p k) = v (ix1 k) :=
  (row_spread_apply h₂ _ p k).trans (vec_as_row_apply h₁ v 0 k)

end Cert.LibBiasRow

end
-- ==== Proof.Accumulate.lean ====
/-
  The kernel computes the linear layer.

  The grid has 4 · 2 · 8 = 64 points; point n = 16·g + 8·h + s handles the block of output rows 2048·g, …, the block of
  output columns 2048·h, …, and the block 512·s, … of the contracted axis.  Over the eight consecutive points of one
  output block the block's buffer is set to zero and the first partial product is added (s = 0), a partial product is added
  (s = 1, …, 6), and at s = 7 the last partial product and then the bias are added; the buffer is written back after s = 7.
  Each partial product multiplies a 2048 × 512 block of X with a 2048 × 512 block of W, rows against rows.  So the entry
  (p, o) of the result is zero plus the eight partial inner products of row p of X with row o of W, plus b(o).
-/
import proofs.«111517_j21251498180723_2_alg».proof.Proof.Gen.KernelIdeal.Value
import proofs.«111517_j21251498180723_2_alg».proof.Proof.LibRowRowDot
import proofs.«111517_j21251498180723_2_alg».proof.Proof.LibBiasRow
import proofs.«111517_j21251498180723_2_alg».proof.Proof.LibNatRead
import proofs.«111517_j21251498180723_2_alg».proof.Proof.Linear

noncomputable section

open scoped BigOperators

namespace Cert.KernelIdeal.Acc

open Cert.KernelIdeal Cert.KernelIdeal.Gen Idealize.ShloMosaic Idealize.ShloMosaic.TcCoe Idealize.SL.Sem
open Idealize.ShloMosaic.ValueIdx Cert.Linear Cert.LibNatRead

/-! ## The body's three values at an entry -/

/-- The zero block. -/
theorem zero_block_apply (y : S2048x2048.Idx) : k0_pay1 (F := Ideal) y = 0 :=
  Ideal.ofBits_zero_f32

/-- One accumulation step at entry (p, q): the running value plus the inner product of row p of the X block with row q
    of the W block (the change of format of the two operands is the identity on extended reals). -/
theorem step_apply (x0 x1 : Vec Ideal S2048x512 .f32) (acc : Vec Ideal S2048x2048 .f32) (p q : Fin 2048) :
    k0_pay2 x0 x1 acc (ix2 p q) = acc (ix2 p q) + ∑ j : Fin 512, x0 (ix2 p j) * x1 (ix2 q j) := by
  have hm := Cert.LibRowRowDot.matmul_zero_rows_apply (φ₁ := .bf16) (φ₂ := .bf16)
    dot_S2048x512_S2048x512_S2048x2048_1_1_0_0_n_n rfl rfl rfl rfl rfl rfl none
    (truncf (F := Ideal) .bf16 x0 bitsLt_bf16_f32) (truncf (F := Ideal) .bf16 x1 bitsLt_bf16_f32) p q
  have hc : shapeCast S2048x2048 acc shapeCasts_S2048x2048_S2048x2048 (ix2 p q) = acc (ix2 p q) :=
    congrFun (shapeCast_self acc _) _
  show (shapeCast S2048x2048 acc shapeCasts_S2048x2048_S2048x2048 (ix2 p q) : EReal)
      + FloatOps.matmul (F := Ideal) dot_S2048x512_S2048x512_S2048x2048_1_1_0_0_n_n none (truncf (F := Ideal) .bf16 x0 bitsLt_bf16_f32)
          (truncf (F := Ideal) .bf16 x1 bitsLt_bf16_f32) (constant (F := Ideal) S2048x2048 .f32 0x00000000#32) (ix2 p q) = _
  rw [hc, hm]
  rfl

/-- The final step at entry (p, q): the bias vector's element q is added. -/
theorem bias_apply (x : Vec Ideal S2048x2048 .f32) (v : Vec Ideal S2048 .f32) (p q : Fin 2048) :
    k0_pay3 x v (ix2 p q) = x (ix2 p q) + v (ix1 q) := by
  have hc : shapeCast S2048x2048 x shapeCasts_S2048x2048_S2048x2048 (ix2 p q) = x (ix2 p q) :=
    congrFun (shapeCast_self x _) _
  have hb := Cert.LibBiasRow.vec_spread_apply shapeCasts_S2048_S1x2048 broadcasts_S1x2048_S2048x2048 v p q
  show (shapeCast S2048x2048 x shapeCasts_S2048x2048_S2048x2048 (ix2 p q) : EReal)
      + broadcastTo S2048x2048 (shapeCast S1x2048 v shapeCasts_S2048_S1x2048) broadcasts_S1x2048_S2048x2048 (ix2 p q) = _
  rw [hc, hb]

/-! ## The blocks the windows stage -/

variable (m : (ℓ : Loc nD τ sig) → Buf (Elt Ideal) ℓ)

/-- The printed index maps over the grid: at point n the X block is (n / 16, n % 8), the W block is (n / 8 % 2, n % 8)
    and the bias block is n / 8 % 2. -/
theorem index_facts : ∀ t : Fin cfg0.N,
    win0_0.index t (0 : Fin 2) = t.val / 16 ∧ win0_0.index t (1 : Fin 2) = t.val % 8
    ∧ win0_1.index t (0 : Fin 2) = t.val / 8 % 2 ∧ win0_1.index t (1 : Fin 2) = t.val % 8
    ∧ win0_2.index t (0 : Fin 1) = t.val / 8 % 2 :=
  (by decide +kernel : ∀ t : Fin grid0.N,
    win0_0.index t (0 : Fin 2) = t.val / 16 ∧ win0_0.index t (1 : Fin 2) = t.val % 8
    ∧ win0_1.index t (0 : Fin 2) = t.val / 8 % 2 ∧ win0_1.index t (1 : Fin 2) = t.val % 8
    ∧ win0_2.index t (0 : Fin 1) = t.val / 8 % 2)

/-- The X block at point n: its entry (p, j) is X at row 2048·(n / 16) + p and column 512·(n % 8) + j. -/
theorem x_block_apply (c : Dev nD) (n : ℕ) (h : n < cfg0.N) (y : S2048x512.Idx) :
    iblk m c 0 ⟨n, h⟩ y = rdX (V m c main_arg0) (2048 * (n / 16) + (y 0).val) (512 * (n % 8) + (y 1).val) := by
  obtain ⟨e0, e1, -⟩ := index_facts ⟨n, h⟩
  have e0' : win0_0.index ⟨n, h⟩ (0 : Fin 2) = n / 16 := e0
  have e1' : win0_0.index ⟨n, h⟩ (1 : Fin 2) = n % 8 := e1
  show V m c main_arg0 (((cfg0.win 0).blk ⟨n, h⟩).view.emb y) = _
  refine rd2_eq _ _ _ _ _ _ ?_ ?_
  · show win0_0.index ⟨n, h⟩ (0 : Fin 2) * 2048 + 1 * (y 0).val = _
    rw [e0']; omega
  · show win0_0.index ⟨n, h⟩ (1 : Fin 2) * 512 + 1 * (y 1).val = _
    rw [e1']; omega

/-- The W block at point n: its entry (q, j) is W at row 2048·(n / 8 % 2) + q and column 512·(n % 8) + j. -/
theorem w_block_apply (c : Dev nD) (n : ℕ) (h : n < cfg0.N) (y : S2048x512.Idx) :
    iblk m c 1 ⟨n, h⟩ y = rdW (V m c main_arg1) (2048 * (n / 8 % 2) + (y 0).val) (512 * (n % 8) + (y 1).val) := by
  obtain ⟨-, -, e0, e1, -⟩ := index_facts ⟨n, h⟩
  have e0' : win0_1.index ⟨n, h⟩ (0 : Fin 2) = n / 8 % 2 := e0
  have e1' : win0_1.index ⟨n, h⟩ (1 : Fin 2) = n % 8 := e1
  show V m c main_arg1 (((cfg0.win 1).blk ⟨n, h⟩).view.emb y) = _
  refine rd2_eq _ _ _ _ _ _ ?_ ?_
  · show win0_1.index ⟨n, h⟩ (0 : Fin 2) * 2048 + 1 * (y 0).val = _
    rw [e0']; omega
  · show win0_1.index ⟨n, h⟩ (1 : Fin 2) * 512 + 1 * (y 1).val = _
    rw [e1']; omega

/-- The bias block at point n: its element q is b at position 2048·(n / 8 % 2) + q. -/
theorem b_block_apply (c : Dev nD) (n : ℕ) (h : n < cfg0.N) (y : S2048.Idx) :
    iblk m c 2 ⟨n, h⟩ y = rdB (V m c main_arg2) (2048 * (n / 8 % 2) + (y 0).val) := by
  obtain ⟨-, -, -, -, e⟩ := index_facts ⟨n, h⟩
  have e' : win0_2.index ⟨n, h⟩ (0 : Fin 1) = n / 8 % 2 := e
  have hy : (y 0).val < 2048 := (y 0).isLt
  show V m c main_arg2 (((cfg0.win 2).blk ⟨n, h⟩).view.emb y) = _
  unfold rdB
  refine congrArg (V m c main_arg2) (funext fun a => Fin.ext ?_)
  match a with
  | ⟨0, _⟩ =>
    show win0_2.index ⟨n, h⟩ (0 : Fin 1) * 2048 + 1 * (y 0).val = (2048 * (n / 8 % 2) + (y 0).val) % 4096
    rw [e']; omega

/-! ## One point's contribution, and the three kinds of point -/

/-- What point n adds at place y of its output block: the partial inner product, over the point's block of the
    contracted axis, of the row of X and the row of W that y stands for. -/
def addend (c : Dev nD) (n : ℕ) (y : S2048x2048.Idx) : EReal :=
  blockDot (V m c main_arg0) (V m c main_arg1) (2048 * (n / 16) + (y 0).val) (2048 * (n / 8 % 2) + (y 1).val) (n % 8)

/-- An accumulation step on the blocks staged at point n adds the point's contribution. -/
theorem step_blocks (c : Dev nD) (n : ℕ) (h : n < cfg0.N) (acc : Vec Ideal S2048x2048 .f32) (y : S2048x2048.Idx) :
    k0_pay2 (iblk m c 0 ⟨n, h⟩) (iblk m c 1 ⟨n, h⟩) acc y = acc y + addend m c n y := by
  obtain ⟨p, q, rfl⟩ : ∃ (p q : Fin 2048), y = ix2 p q := ⟨y 0, y 1, eq_ix2 y⟩
  refine (step_apply (iblk m c 0 ⟨n, h⟩) (iblk m c 1 ⟨n, h⟩) acc p q).trans ?_
  unfold addend blockDot
  refine congrArg (acc (ix2 p q) + ·) (Finset.sum_congr rfl fun j _ => ?_)
  exact congrArg₂ (· * ·) (x_block_apply m c n h (ix2 p j)) (w_block_apply m c n h (ix2 q j))

/-- The first point of a run leaves zero plus its contribution. -/
theorem reset_apply (c : Dev nD) (n : ℕ) (h : n < cfg0.N) (y : S2048x2048.Idx) :
    Value.reset3 m c n h y = 0 + addend m c n y := by
  unfold Value.reset3
  refine (step_blocks m c n h _ y).trans ?_
  rw [zero_block_apply]

/-- A middle point of a run adds its contribution to what the point before left. -/
theorem step_mid_apply (c : Dev nD) (n : ℕ) (h : n < cfg0.N) (acc : Vec Ideal S2048x2048 .f32) (y : S2048x2048.Idx)
    (h0 : ¬n % 8 = 0) (h7 : ¬n % 8 = 7) : Value.step3 m c n h acc y = acc y + addend m c n y := by
  unfold Value.step3
  rw [if_pos ⟨h0, h7⟩]
  exact step_blocks m c n h acc y

/-- The last point of a run adds its contribution and then the bias. -/
theorem step_last_apply (c : Dev nD) (n : ℕ) (h : n < cfg0.N) (acc : Vec Ideal S2048x2048 .f32) (y : S2048x2048.Idx)
    (h7 : n % 8 = 7) :
    Value.step3 m c n h acc y = (acc y + addend m c n y) + rdB (V m c main_arg2) (2048 * (n / 8 % 2) + (y 1).val) := by
  unfold Value.step3
  rw [if_neg (fun hh => hh.2 h7), if_pos ⟨by omega, h7⟩]
  obtain ⟨p, q, rfl⟩ : ∃ (p q : Fin 2048), y = ix2 p q := ⟨y 0, y 1, eq_ix2 y⟩
  refine (bias_apply _ _ p q).trans ?_
  exact congrArg₂ (· + ·) (step_blocks m c n h acc (ix2 p q)) (b_block_apply m c n h (ix1 q))

/-! ## The array after the run -/

/-- After the run the output array holds the linear layer of the three argument arrays. -/
theorem final_apply (c : Dev nD) (i : S8192x4096.Idx) :
    Value.G3 m c i = linear (V m c main_arg0) (V m c main_arg1) (V m c main_arg2) i := by
  have hi0 : (i 0).val < 8192 := (i 0).isLt
  have hi1 : (i 1).val < 4096 := (i 1).isLt
  have hN : cfg0.N = 64 := N_0
  have hrun : Value.run3Of i = 2 * ((i 0).val / 2048 - 0) + 1 * ((i 1).val / 2048 - 0) := rfl
  have hl0 : (Value.loc3Of i 0).val = (i 0).val % 2048 := rfl
  have hl1 : (Value.loc3Of i 1).val = (i 1).val % 2048 := rfl
  unfold Value.G3
  generalize Value.loc3Of i = y at hl0 hl1
  generalize Value.run3Of i = r at hrun
  have hlt : 8 * r + 7 < cfg0.N := by rw [hN]; omega
  have hlt6 : 8 * r + 6 < cfg0.N := by rw [hN]; omega
  rw [dif_pos hlt]
  -- the run's first seven points: zero plus their seven contributions
  have hfold := Pipeline.accAt_add_apply (ι := S2048x2048.Idx) (β := EReal) (Value.reset3 m c) (Value.step3 m c)
    (fun _ => 0) (addend m c) (8 * r) 6 (fun h y => reset_apply m c (8 * r) h y)
    (fun n h acc y h1 h2 => step_mid_apply m c n h acc y (by omega) (by omega)) 6 le_rfl hlt6 y
  -- the eighth point
  have h7 : Pipeline.accAt (Value.reset3 m c) (Value.step3 m c) (8 * r) 7 hlt
      = Value.step3 m c (8 * r + 7) hlt (Pipeline.accAt (Value.reset3 m c) (Value.step3 m c) (8 * r) 6 hlt6) :=
    Pipeline.accAt_succ _ _ (8 * r) 6 hlt
  rw [h7]
  refine (step_last_apply m c (8 * r + 7) hlt _ y (by omega)).trans ?_
  rw [hfold]
  -- each contribution is a block inner product of row i 0 of X with row i 1 of W
  have ha : ∀ s, s < 8 → addend m c (8 * r + s) y
      = blockDot (V m c main_arg0) (V m c main_arg1) (i 0).val (i 1).val s := fun s hs => by
    unfold addend
    rw [show 2048 * ((8 * r + s) / 16) + (y 0).val = (i 0).val by omega,
      show 2048 * ((8 * r + s) / 8 % 2) + (y 1).val = (i 1).val by omega, show (8 * r + s) % 8 = s by omega]
  have hs7 : ∑ s ∈ Finset.range (6 + 1), addend m c (8 * r + s) y
      = ∑ s ∈ Finset.range 7, blockDot (V m c main_arg0) (V m c main_arg1) (i 0).val (i 1).val s :=
    Finset.sum_congr rfl fun s hs => ha s (by have := Finset.mem_range.mp hs; omega)
  rw [hs7, ha 7 (by omega), show 2048 * ((8 * r + 7) / 8 % 2) + (y 1).val = (i 1).val by omega]
  exact blocked_eq_linear _ _ _ i

end Cert.KernelIdeal.Acc

end
-- ==== Proof.lean ====
/-
  A dense linear layer out = X · Wᵀ + b, for X of shape [8192, 4096], W of shape [4096, 4096] and b of shape [4096]:
  a blocked kernel against one contraction followed by a broadcast sum.

  The kernel walks a 4 × 2 × 8 grid.  For each of the 4 × 2 output blocks of 2048 × 2048 entries it runs through the
  eight blocks of 512 positions of the contracted axis, starting the output block at zero, adding at each step the
  product (rows against rows) of a 2048 × 512 block of X with a 2048 × 512 block of W, and adding the bias block after
  the last step.  The reference contracts the whole rows at once and adds the bias.  On extended reals the two give, at
  entry (p, o), the same sum of the 4096 products X(p, j) · W(o, j) plus b(o): the kernel's value is that sum regrouped
  into eight consecutive blocks and preceded by a zero, and regrouping a sum needs only commutativity and associativity
  of addition, which hold at the infinities too.  So the inputs' finiteness is never used.

  The kernel's value after the run is taken from its generated value leg (the fold of each run of eight points) and
  evaluated in Proof/Accumulate.lean; the reference's value is taken from its generated run and read entry by entry in
  Proof/Reference.lean; the layer itself and the regrouping are in Proof/Linear.lean.  No rewrite was applied when the
  kernel was idealized, so the statement that the idealization is sanctioned has nothing to prove.
-/
import proofs.«111517_j21251498180723_2_alg».proof.Defs
import proofs.«111517_j21251498180723_2_alg».proof.Proof.Gen.Kernel.Frame
import proofs.«111517_j21251498180723_2_alg».proof.Proof.Gen.KernelIdeal.Value
import proofs.«111517_j21251498180723_2_alg».proof.Proof.Gen.Pre_finite_inputs
import proofs.«111517_j21251498180723_2_alg».proof.Proof.Gen.ReferenceIdeal.Run
import proofs.«111517_j21251498180723_2_alg».proof.Proof.Reference
import proofs.«111517_j21251498180723_2_alg».proof.Proof.Accumulate
import Idealize.ShloMosaic.Adequacy
import Idealize.ShloMosaic.Init

noncomputable section

namespace Cert.Proof

open Idealize.ShloMosaic Idealize.SL.Sem

/-- The idealized kernel terminates without a fault and leaves its arguments as they were: its value run, weakened. -/
theorem frame_KernelIdeal : frame_KernelIdeal := fun m ρ _ =>
  (θ_run Cert.KernelIdeal.defs _ _).mono (fun _ h c => (h c).2) (Cert.KernelIdeal.Value.run (F := Ideal) m ρ)

/-- The same for the reference: its run, weakened. -/
theorem frame_ReferenceIdeal : frame_ReferenceIdeal := fun m ρ _ =>
  (θ_run Cert.ReferenceIdeal.defs _ _).mono (fun _ h c => (h c).2) (Cert.ReferenceIdeal.Value.run (F := Ideal) m ρ)

/-- From memories that agree on X, W and b, both programs end with the linear layer of those three arrays. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  simp only [hagree c]
  rw [Cert.ReferenceIdeal.RefValue.reference_eq_linear]
  exact (funext fun i => Cert.KernelIdeal.Acc.final_apply m c i).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
